-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_arg15 : FVec F S1024x1024 .f32) (main_arg16 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 37
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S4096x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S4096x1024, .bf16⟩
  | .hbm, ⟨27, _⟩ => ⟨S4096, .f32⟩
  | .hbm, ⟨28, _⟩ => ⟨S1024x4096, .bf16⟩
  | .hbm, ⟨29, _⟩ => ⟨S1024x4096, .bf16⟩
  | .hbm, ⟨30, _⟩ => ⟨S1024x1024, .f32⟩
  | .hbm, ⟨31, _⟩ => ⟨S1024x1024, .bf16⟩
  | .hbm, ⟨32, _⟩ => ⟨S1x4096, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1024x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  transposes_S1024x1024_S1024x1024_1_0 : S1024x1024.Transposes [1, 0] S1024x1024
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x4096_S256x4096_1_0_0_1_n_n_wf : DotDims.WF S256x1024 S1024x4096 S256x4096 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S4096x1024.size a
  hwx0_10 : ∀ i : grid0.Coords, EltTy.bits .f32 = 32 ∨ (Rect.block (s := S4096x1024) S256x1024.size (cc0_transform_10 i) (hinb0_10 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17_1) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v17_2) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S4096x1024, .f32⟩
  | .hbm, ⟨18, _⟩ => ⟨S4096x1024, .f32⟩
  | .hbm, ⟨19, _⟩ => ⟨S4096, .f32⟩
  | .hbm, ⟨20, _⟩ => ⟨S1024x4096, .f32⟩
  | .hbm, ⟨21, _⟩ => ⟨S4096x4096, .f32⟩
  | .hbm, ⟨22, _⟩ => ⟨S1024x4096, .f32⟩
  | .hbm, ⟨23, _⟩ => ⟨S4096x4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []
  dot_S4096x1024_S1024x1024_S4096x1024_1_0_0_1_n_n_wf : DotDims.WF S4096x1024 S1024x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.CellBody.lean ====
/-
  The frame of the LSTM-cell kernel, at any float instance.

  @main first lays the weights out on the host: the four gate matrices of each of the two gate products are
  stacked along the output axis and transposed, the output matrix is transposed, the biases are stacked and made
  rows. Then ONE region runs over 16 grid points; point t takes rows 256 t … 256 t + 255 of the input, the hidden
  state and the cell state, and the five weight arrays whole, and writes back rows 256 t … 256 t + 255 of the new
  hidden state, the new cell state and the output.

  Here: what each buffer holds when the region is entered (the host operations write none of the seventeen
  argument arrays), what the body leaves in its three output blocks as functions of its eight input blocks, the
  body's triple, and the run of @main with every output array named and every argument array unchanged.
-/
import proofs.«111151_j37245956391346_2_alg».proof.Proof.Gen.KernelIdeal.Launch
import proofs.«111151_j37245956391346_2_alg».proof.Proof.Gen.KernelIdeal.Skeleton
import proofs.«111151_j37245956391346_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that lay the weights out. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: every one of them writes a buffer of its own. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 1: every one of them writes a buffer of its own. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 2: every one of them writes a buffer of its own. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 3: every one of them writes a buffer of its own. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 4: every one of them writes a buffer of its own. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 5: every one of them writes a buffer of its own. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 6: every one of them writes a buffer of its own. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 7: every one of them writes a buffer of its own. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 8: every one of them writes a buffer of its own. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 9: every one of them writes a buffer of its own. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 10: every one of them writes a buffer of its own. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 11: every one of them writes a buffer of its own. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 12: every one of them writes a buffer of its own. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 13: every one of them writes a buffer of its own. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 14: every one of them writes a buffer of its own. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 15: every one of them writes a buffer of its own. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 16: every one of them writes a buffer of its own. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, cut from its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not: where it is not fetched
    its block index has not moved since the point before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not: where it is not fetched
    its block index has not moved since the point before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not: where it is not fetched
    its block index has not moved since the point before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not: where it is not fetched
    its block index has not moved since the point before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not: where it is not fetched
    its block index has not moved since the point before. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not: where it is not fetched
    its block index has not moved since the point before. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not: where it is not fetched
    its block index has not moved since the point before. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not: where it is not fetched
    its block index has not moved since the point before. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in its three output blocks -/

abbrev rRows : Rect S256x1024 := Rect.unit (s := S256x1024) ![0, 0] S256x1024.size inb_S256x1024_S256x1024_0_0
abbrev rGateW : Rect S1024x4096 := Rect.unit (s := S1024x4096) ![0, 0] S1024x4096.size inb_S1024x4096_S1024x4096_0_0
abbrev rGateB : Rect S1x4096 := Rect.unit (s := S1x4096) ![0, 0] S1x4096.size inb_S1x4096_S1x4096_0_0
abbrev rOutW : Rect S1024x1024 := Rect.unit (s := S1024x1024) ![0, 0] S1024x1024.size inb_S1024x1024_S1024x1024_0_0
abbrev rOutB : Rect S1x1024 := Rect.unit (s := S1x1024) ![0, 0] S1x1024.size inb_S1x1024_S1x1024_0_0

/-- The new cell state's block: forget gate times the old cell state plus input gate times candidate. -/
def cellBlk (x h cs : Vec F S256x1024 .f32) (wx wh : Vec F S1024x4096 .bf16) (b : Vec F S1x4096 .f32) : Vec F S256x1024 .f32 :=
  View.canon [⟨rRows, k0_pay3 (View.ld x rRows) (View.ld h rRows) (View.ld wx rGateW) (View.ld wh rGateW) (View.ld b rGateB) (View.ld cs rRows)⟩]

/-- The new hidden state's block: output gate times tanh of the new cell state. -/
def hidBlk (x h cs : Vec F S256x1024 .f32) (wx wh : Vec F S1024x4096 .bf16) (b : Vec F S1x4096 .f32) : Vec F S256x1024 .f32 :=
  View.canon [⟨rRows, k0_pay4 (View.ld x rRows) (View.ld h rRows) (View.ld wx rGateW) (View.ld wh rGateW) (View.ld b rGateB) (View.ld cs rRows)⟩]

/-- The output's block: the new hidden state through the output matrix, plus the output bias. -/
def outBlk (x h cs : Vec F S256x1024 .f32) (wx wh : Vec F S1024x4096 .bf16) (b : Vec F S1x4096 .f32) (wo : Vec F S1024x1024 .bf16) (bo : Vec F S1x1024 .f32) : Vec F S256x1024 .f32 :=
  View.canon [⟨rRows, k0_pay1 (k0_pay5 (View.ld x rRows) (View.ld h rRows) (View.ld wx rGateW) (View.ld wh rGateW) (View.ld b rGateB) (View.ld cs rRows) (View.ld wo rOutW)) (View.ld bo rOutB)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 4000000 in
/-- On whole staging buffers, the eight inputs' at contents `x … bo` and the three outputs' at anything, the body runs
    to a state with the inputs' as they were and the outputs' at `hidBlk`, `cellBlk`, `outBlk` of them. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1024x1024 .bf16) (harg7 : arg7.IsWhole) (arg8 : Memref sig .tc .vmem S1x1024 .f32) (harg8 : arg8.IsWhole)
    (arg9 : Memref sig .tc .vmem S256x1024 .f32) (harg9 : arg9.IsWhole) (arg10 : Memref sig .tc .vmem S256x1024 .f32) (harg10 : arg10.IsWhole)
    (arg11 : Memref sig .tc .vmem S256x1024 .f32) (harg11 : arg11.IsWhole)
    (x h cs : Vec F S256x1024 .f32) (wx wh : Vec F S1024x4096 .bf16) (b : Vec F S1x4096 .f32) (wo : Vec F S1024x1024 .bf16) (bo : Vec F S1x1024 .f32)
    (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare wx ∗ owns (c : Thread nD τ) arg5 fullShare wh ∗ owns (c : Thread nD τ) arg6 fullShare b
        ∗ owns (c : Thread nD τ) arg7 fullShare wo ∗ owns (c : Thread nD τ) arg8 fullShare bo
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare h ∗ owns (c : Thread nD τ) arg3 fullShare cs
            ∗ owns (c : Thread nD τ) arg4 fullShare wx ∗ owns (c : Thread nD τ) arg5 fullShare wh ∗ owns (c : Thread nD τ) arg6 fullShare b
            ∗ owns (c : Thread nD τ) arg7 fullShare wo ∗ owns (c : Thread nD τ) arg8 fullShare bo
            ∗ owns (c : Thread nD τ) arg9 fullShare (hidBlk x h cs wx wh b) ∗ owns (c : Thread nD τ) arg10 fullShare (cellBlk x h cs wx wh b)
            ∗ owns (c : Thread nD τ) arg11 fullShare (outBlk x h cs wx wh b wo bo)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_rows _)
  isplitl [H10]
  · iexists _; isplitr
    swap; · iexact H10
    ipureintro
    exact View.read_writes_eq_canon _ _ _ (cover_rows _)
  iexists _; isplitr
  swap; · iexact H11
  ipureintro
  exact View.read_writes_eq_canon _ _ _ (cover_rows _)

end Cert.KernelIdeal.Cell

end
-- ==== Proof.CellRun.lean ====
/-
  The run of the LSTM-cell program: the pipeline's proof data (each input window's buffer keeps its block, each
  output window's buffer ends at the body's block for the point), the body obligation at a generic grid point, and
  the run of @main: every weakly fair execution terminates, each of the three result arrays holds what the sixteen
  write-backs left, and every argument array is as launched.
-/
import proofs.«111151_j37245956391346_2_alg».proof.Proof.CellBody

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block
    and the three outputs' at the body's blocks of the input blocks; nothing else carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hidBlk (iblk m c 0 t) (iblk m c 1 t) (iblk m c 2 t) (iblk m c 3 t) (iblk m c 4 t) (iblk m c 5 t)
    | ⟨9, _⟩ => cellBlk (iblk m c 0 t) (iblk m c 1 t) (iblk m c 2 t) (iblk m c 3 t) (iblk m c 4 t) (iblk m c 5 t)
    | ⟨10, _⟩ => outBlk (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_hid (c : Dev nD) (t : Fin cfg0.N) : (dats m 0 c).after 8 t = hidBlk (iblk m c 0 t) (iblk m c 1 t) (iblk m c 2 t) (iblk m c 3 t) (iblk m c 4 t) (iblk m c 5 t) := by dsimp only [dats]
theorem after_cell (c : Dev nD) (t : Fin cfg0.N) : (dats m 0 c).after 9 t = cellBlk (iblk m c 0 t) (iblk m c 1 t) (iblk m c 2 t) (iblk m c 3 t) (iblk m c 4 t) (iblk m c 5 t) := by dsimp only [dats]
theorem after_out (c : Dev nD) (t : Fin cfg0.N) : (dats m 0 c).after 10 t = outBlk (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_hid, after_cell, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array a window stages ends at what the write-backs left
    (an input: its entry contents), every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments after the run: the three the windows stage, read back through the proof data; the fourteen the
    host operations read, found as the region found them; none written before the region. -/
theorem kept_args (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c),
   ((h c).2 main_arg12 (Pipeline.mem_restRefs_of main_arg12 (by decide) (by decide))).trans (V_main_arg12 m c),
   ((h c).2 main_arg13 (Pipeline.mem_restRefs_of main_arg13 (by decide) (by decide))).trans (V_main_arg13 m c),
   ((h c).2 main_arg14 (Pipeline.mem_restRefs_of main_arg14 (by decide) (by decide))).trans (V_main_arg14 m c),
   ((h c).2 main_arg15 (Pipeline.mem_restRefs_of main_arg15 (by decide) (by decide))).trans (V_main_arg15 m c),
   ((h c).2 main_arg16 (Pipeline.mem_restRefs_of main_arg16 (by decide) (by decide))).trans (V_main_arg16 m c)⟩

/-- THE FRAME: @main runs to the end and leaves its seventeen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)) :=
  (θ_run defs _ _).mono (fun r h c => kept_args m r h c) (run_main m ρ)

end Cert.KernelIdeal.Cell

end
-- ==== Proof.LstmSpec.lean ====
/-
  The LSTM cell as mathematics, on the extended reals.

  For a batch of n rows: x, h (inputs and hidden state, n × 1024), cs (cell state, n × 1024), the two gate weight
  matrices wx, wh (1024 × 4096, the four gates' columns side by side: forget, input, output, candidate), the gate bias
  b (4096), the output matrix wo (1024 × 1024) and the output bias bo (1024).

    gate p j      = (Σ_k x p k · wx k j  +  Σ_k h p k · wh k j)  +  b j
    newCell p q   = σ(gate p q) · cs p q  +  σ(gate p (1024 + q)) · tanh(gate p (3072 + q))
    newHidden p q = σ(gate p (2048 + q)) · tanh(newCell p q)
    output p q    = Σ_k newHidden p k · wo k q  +  bo q

  with σ z = 1 / (1 + e^(-z)). Every entry of row p depends on row p of x, h and cs only: a block of rows of the
  result is the result of the block of rows (`newCell_rows`, `newHidden_rows`, `output_rows`).
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

/-- An a × b array of extended reals. -/
abbrev Mat (a b : Nat) : Type := (⟨2, ![a, b]⟩ : Shape).Idx → EReal
/-- A vector of a extended reals. -/
abbrev Vect (a : Nat) : Type := (⟨1, ![a]⟩ : Shape).Idx → EReal

/-- Column q of the forget gate among the 4096 gate columns. -/
def colF (q : Fin 1024) : Fin 4096 := ⟨q.val, by have := q.isLt; omega⟩
/-- Column q of the input gate. -/
def colI (q : Fin 1024) : Fin 4096 := ⟨1024 + q.val, by have := q.isLt; omega⟩
/-- Column q of the output gate. -/
def colO (q : Fin 1024) : Fin 4096 := ⟨2048 + q.val, by have := q.isLt; omega⟩
/-- Column q of the candidate. -/
def colG (q : Fin 1024) : Fin 4096 := ⟨3072 + q.val, by have := q.isLt; omega⟩

variable {n : Nat}

/-- The pre-activation of gate column j in row p. -/
def gate (x h : Mat n 1024) (wx wh : Mat 1024 4096) (b : Vect 4096) (p : Fin n) (j : Fin 4096) : EReal :=
  (∑ k : Fin 1024, x (ix2 p k) * wx (ix2 k j) + ∑ k : Fin 1024, h (ix2 p k) * wh (ix2 k j)) + b (ix1 j)

/-- The new cell state. -/
def newCell (x h cs : Mat n 1024) (wx wh : Mat 1024 4096) (b : Vect 4096) (p : Fin n) (q : Fin 1024) : EReal :=
  Ideal.logistic (gate x h wx wh b p (colF q)) * cs (ix2 p q)
    + Ideal.logistic (gate x h wx wh b p (colI q)) * Ideal.tanh (gate x h wx wh b p (colG q))

/-- The new hidden state. -/
def newHidden (x h cs : Mat n 1024) (wx wh : Mat 1024 4096) (b : Vect 4096) (p : Fin n) (q : Fin 1024) : EReal :=
  Ideal.logistic (gate x h wx wh b p (colO q)) * Ideal.tanh (newCell x h cs wx wh b p q)

/-- The output. -/
def output (x h cs : Mat n 1024) (wx wh : Mat 1024 4096) (b : Vect 4096) (wo : Mat 1024 1024) (bo : Vect 1024)
    (p : Fin n) (q : Fin 1024) : EReal :=
  (∑ k : Fin 1024, newHidden x h cs wx wh b p k * wo (ix2 k q)) + bo (ix1 q)

/-! ## Row p of the result depends on row p of the batch alone -/

variable {n' : Nat}

theorem gate_rows (x h : Mat n 1024) (x' h' : Mat n' 1024) (wx wh : Mat 1024 4096) (b : Vect 4096) (p : Fin n) (p' : Fin n')
    (hx : ∀ k, x (ix2 p k) = x' (ix2 p' k)) (hh : ∀ k, h (ix2 p k) = h' (ix2 p' k)) (j : Fin 4096) :
    gate x h wx wh b p j = gate x' h' wx wh b p' j := by
  unfold gate
  simp only [hx, hh]

theorem newCell_rows (x h cs : Mat n 1024) (x' h' cs' : Mat n' 1024) (wx wh : Mat 1024 4096) (b : Vect 4096) (p : Fin n) (p' : Fin n')
    (hx : ∀ k, x (ix2 p k) = x' (ix2 p' k)) (hh : ∀ k, h (ix2 p k) = h' (ix2 p' k)) (hc : ∀ k, cs (ix2 p k) = cs' (ix2 p' k))
    (q : Fin 1024) : newCell x h cs wx wh b p q = newCell x' h' cs' wx wh b p' q := by
  unfold newCell
  rw [gate_rows x h x' h' wx wh b p p' hx hh, gate_rows x h x' h' wx wh b p p' hx hh, gate_rows x h x' h' wx wh b p p' hx hh, hc]

theorem newHidden_rows (x h cs : Mat n 1024) (x' h' cs' : Mat n' 1024) (wx wh : Mat 1024 4096) (b : Vect 4096) (p : Fin n) (p' : Fin n')
    (hx : ∀ k, x (ix2 p k) = x' (ix2 p' k)) (hh : ∀ k, h (ix2 p k) = h' (ix2 p' k)) (hc : ∀ k, cs (ix2 p k) = cs' (ix2 p' k))
    (q : Fin 1024) : newHidden x h cs wx wh b p q = newHidden x' h' cs' wx wh b p' q := by
  unfold newHidden
  rw [gate_rows x h x' h' wx wh b p p' hx hh, newCell_rows x h cs x' h' cs' wx wh b p p' hx hh hc]

theorem output_rows (x h cs : Mat n 1024) (x' h' cs' : Mat n' 1024) (wx wh : Mat 1024 4096) (b : Vect 4096) (wo : Mat 1024 1024) (bo : Vect 1024)
    (p : Fin n) (p' : Fin n')
    (hx : ∀ k, x (ix2 p k) = x' (ix2 p' k)) (hh : ∀ k, h (ix2 p k) = h' (ix2 p' k)) (hc : ∀ k, cs (ix2 p k) = cs' (ix2 p' k))
    (q : Fin 1024) : output x h cs wx wh b wo bo p q = output x' h' cs' wx wh b wo bo p' q := by
  unfold output
  simp only [newHidden_rows x h cs x' h' cs' wx wh b p p' hx hh hc]

end Cert.LstmSpec

end
-- ==== Proof.CellPayload.lean ====
/-
  The kernel body's arithmetic, read entry by entry on the extended reals.

  The body's block of 256 rows is the LSTM cell of those 256 rows: the gate pre-activations are the two products
  into zero accumulators, added, plus the bias row repeated down the block; the four gates are its four 1024-column
  slices; the new cell state, the new hidden state and the output follow entry by entry. A change of float format is
  the identity here, so the narrowing of x, h and the new hidden state before each product does nothing.
-/
import proofs.«111151_j37245956391346_2_alg».proof.Proof.Gen.KernelIdeal.Skeleton
import proofs.«111151_j37245956391346_2_alg».proof.Proof.LstmSpec
import Idealize.ShloMosaic.Lib.Pipeline.Value
import Idealize.ShloMosaic.Lib.ValueIdx
import Idealize.ShloMosaic.PureOps.Ideal.Laws

noncomputable section

namespace Cert.KernelIdeal.CellValue

open Cert.KernelIdeal Cert.KernelIdeal.Gen Cert.LstmSpec
open Idealize.ShloMosaic Idealize.ShloMosaic.ValueIdx

/-! ### The gateProduct product read at an index -/

theorem gateProduct_lhs0 (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem gateProduct_lhs1 (i : S256x4096.Idx) (q : dot_S256x1024_S1024x4096_S256x4096_1_0_0_1_n_n.contr.Idx) : (dot_S256x1024_S1024x4096_S256x4096_1_0_0_1_n_n.lhsIdx i q 1).val = (q ⟨0, by decide⟩).val :=
  dot_S256x1024_S1024x4096_S256x4096_1_0_0_1_n_n.lhsIdx_val_of_single rfl i q
theorem gateProduct_rhs0 (i : S256x4096.Idx) (q : dot_S256x1024_S1024x4096_S256x4096_1_0_0_1_n_n.contr.Idx) : (dot_S256x1024_S1024x4096_S256x4096_1_0_0_1_n_n.rhsIdx i q 0).val = (q ⟨0, by decide⟩).val :=
  dot_S256x1024_S1024x4096_S256x4096_1_0_0_1_n_n.rhsIdx_val_of_single rfl i q
theorem gateProduct_rhs1 (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Into a zero accumulator, entry (r, j) of the product is the sum over the 1024 contracted positions of the row's
    entries times the column's. -/
theorem gateProduct_apply (l : FVec Ideal S256x1024 .bf16) (w : FVec Ideal S1024x4096 .bf16) (r : Fin 256) (j : Fin 4096) :
    matmul dot_S256x1024_S1024x4096_S256x4096_1_0_0_1_n_n none l w (constant (F := Ideal) S256x4096 .f32 0x00000000#32) (ix2 r j)
      = ∑ k : Fin 1024, l (ix2 r k) * w (ix2 k j) := by
  refine (Ideal.matmul_constant_zero_apply dot_S256x1024_S1024x4096_S256x4096_1_0_0_1_n_n none l w (ix2 r j)).trans ?_
  rw [← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 r j) ((contrEquiv1 dot_S256x1024_S1024x4096_S256x4096_1_0_0_1_n_n 1024 rfl rfl).symm k) = ix2 r k := funext fun a => Fin.ext (by
    match a with
    | ⟨0, _⟩ => exact gateProduct_lhs0 _ _
    | ⟨1, _⟩ => exact (gateProduct_lhs1 _ _).trans hk)
  have er : dot_S256x1024_S1024x4096_S256x4096_1_0_0_1_n_n.rhsIdx (ix2 r j) ((contrEquiv1 dot_S256x1024_S1024x4096_S256x4096_1_0_0_1_n_n 1024 rfl rfl).symm k) = ix2 k j := funext fun a => Fin.ext (by
    match a with
    | ⟨0, _⟩ => exact (gateProduct_rhs0 _ _).trans hk
    | ⟨1, _⟩ => exact gateProduct_rhs1 _ _)
  rw [el, er]

/-! ### The outProduct product read at an index -/

theorem outProduct_lhs0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem outProduct_lhs1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem outProduct_rhs0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem outProduct_rhs1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Into a zero accumulator, entry (r, j) of the product is the sum over the 1024 contracted positions of the row's
    entries times the column's. -/
theorem outProduct_apply (l : FVec Ideal S256x1024 .bf16) (w : FVec Ideal S1024x1024 .bf16) (r : Fin 256) (j : Fin 1024) :
    matmul dot_S256x1024_S1024x1024_S256x1024_1_0_0_1_n_n none l w (constant (F := Ideal) S256x1024 .f32 0x00000000#32) (ix2 r j)
      = ∑ k : Fin 1024, l (ix2 r k) * w (ix2 k j) := by
  refine (Ideal.matmul_constant_zero_apply dot_S256x1024_S1024x1024_S256x1024_1_0_0_1_n_n none l w (ix2 r j)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r j) ((contrEquiv1 dot_S256x1024_S1024x1024_S256x1024_1_0_0_1_n_n 1024 rfl rfl).symm k) = ix2 r k := funext fun a => Fin.ext (by
    match a with
    | ⟨0, _⟩ => exact outProduct_lhs0 _ _
    | ⟨1, _⟩ => exact (outProduct_lhs1 _ _).trans hk)
  have er : dot_S256x1024_S1024x1024_S256x1024_1_0_0_1_n_n.rhsIdx (ix2 r j) ((contrEquiv1 dot_S256x1024_S1024x1024_S256x1024_1_0_0_1_n_n 1024 rfl rfl).symm k) = ix2 k j := funext fun a => Fin.ext (by
    match a with
    | ⟨0, _⟩ => exact (outProduct_rhs0 _ _).trans hk
    | ⟨1, _⟩ => exact outProduct_rhs1 _ _)
  rw [el, er]

/-! ### The bias rows repeated down the block -/

theorem gateBias_apply (v : S1x4096.Idx → EReal) (hb : S1x4096.Broadcasts S256x4096) (r : Fin 256) (j : Fin 4096) :
    broadcastTo S256x4096 v hb (ix2 r j) = v (ix2 (0 : Fin 1) j) :=
  broadcastTo_apply v hb (ix2 r j) (ix2 (0 : Fin 1) j) (fun a => match a with
    | ⟨0, _⟩ => by show (0 : Nat) = if (1 : Nat) = 1 then 0 else _; rw [if_pos rfl]
    | ⟨1, _⟩ => by show j.val = if (4096 : Nat) = 1 then 0 else j.val; rw [if_neg (by decide)])

theorem outBias_apply (v : S1x1024.Idx → EReal) (hb : S1x1024.Broadcasts S256x1024) (r : Fin 256) (q : Fin 1024) :
    broadcastTo S256x1024 v hb (ix2 r q) = v (ix2 (0 : Fin 1) q) :=
  broadcastTo_apply v hb (ix2 r q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

/-! ### The four gates' columns -/

theorem sliceF_apply (g : S256x4096.Idx → EReal) (h : S256x4096.Slices ![0, 0] S256x1024) (r : Fin 256) (q : Fin 1024) :
    extractStridedSlice S256x1024 ![0, 0] g h (ix2 r q) = g (ix2 r (colF q)) :=
  extractStridedSlice_apply ![0, 0] g h (ix2 r q) (ix2 r (colF q)) (fun a => match a with
    | ⟨0, _⟩ => by show r.val = 0 + r.val; omega
    | ⟨1, _⟩ => by show q.val = 0 + q.val; omega)
theorem sliceI_apply (g : S256x4096.Idx → EReal) (h : S256x4096.Slices ![0, 1024] S256x1024) (r : Fin 256) (q : Fin 1024) :
    extractStridedSlice S256x1024 ![0, 1024] g h (ix2 r q) = g (ix2 r (colI q)) :=
  extractStridedSlice_apply ![0, 1024] g h (ix2 r q) (ix2 r (colI q)) (fun a => match a with
    | ⟨0, _⟩ => by show r.val = 0 + r.val; omega
    | ⟨1, _⟩ => by show 1024 + q.val = 1024 + q.val; rfl)
theorem sliceO_apply (g : S256x4096.Idx → EReal) (h : S256x4096.Slices ![0, 2048] S256x1024) (r : Fin 256) (q : Fin 1024) :
    extractStridedSlice S256x1024 ![0, 2048] g h (ix2 r q) = g (ix2 r (colO q)) :=
  extractStridedSlice_apply ![0, 2048] g h (ix2 r q) (ix2 r (colO q)) (fun a => match a with
    | ⟨0, _⟩ => by show r.val = 0 + r.val; omega
    | ⟨1, _⟩ => by show 2048 + q.val = 2048 + q.val; rfl)
theorem sliceG_apply (g : S256x4096.Idx → EReal) (h : S256x4096.Slices ![0, 3072] S256x1024) (r : Fin 256) (q : Fin 1024) :
    extractStridedSlice S256x1024 ![0, 3072] g h (ix2 r q) = g (ix2 r (colG q)) :=
  extractStridedSlice_apply ![0, 3072] g h (ix2 r q) (ix2 r (colG q)) (fun a => match a with
    | ⟨0, _⟩ => by show r.val = 0 + r.val; omega
    | ⟨1, _⟩ => by show 3072 + q.val = 3072 + q.val; rfl)

/-! ### The payloads -/

theorem logistic_at {s : Shape} {φ : FTy} (a : FVec Ideal s φ) (i : s.Idx) : Idealize.ShloMosaic.logistic a i = Ideal.logistic (a i) := rfl
theorem tanh_at {s : Shape} {φ : FTy} (a : FVec Ideal s φ) (i : s.Idx) : Idealize.ShloMosaic.tanh a i = Ideal.tanh (a i) := rfl

/-- The bias the block sees: the one row of the staged bias array. -/
abbrev rowOf {a : Nat} (v : (⟨2, ![1, a]⟩ : Shape).Idx → EReal) : Vect a := fun i => v (ix2 (0 : Fin 1) (i 0))

/-- The gate pre-activations of the block. -/
theorem gates_apply (v0 v2 : Vec Ideal S256x1024 .f32) (v4 v7 : Vec Ideal S1024x4096 .bf16) (v11 : Vec Ideal S1x4096 .f32) (r : Fin 256) (j : Fin 4096) :
    k0_pay2 (F := Ideal) v0 v2 v4 v7 v11 (ix2 r j) = gate (n := 256) v0 v2 v4 v7 (rowOf v11) r j := by
  dsimp only [k0_pay2]
  rw [addf_apply, addf_apply, shapeCast_self, shapeCast_self, shapeCast_self, gateProduct_apply, gateProduct_apply, gateBias_apply]
  rfl

/-- The new cell state of the block. -/
theorem cell_apply (v0 v2 v23 : Vec Ideal S256x1024 .f32) (v4 v7 : Vec Ideal S1024x4096 .bf16) (v11 : Vec Ideal S1x4096 .f32) (r : Fin 256) (q : Fin 1024) :
    k0_pay3 (F := Ideal) v0 v2 v4 v7 v11 v23 (ix2 r q) = newCell (n := 256) v0 v2 v23 v4 v7 (rowOf v11) r q := by
  dsimp only [k0_pay3]
  rw [addf_apply, mulf_apply, mulf_apply, logistic_at, logistic_at, tanh_at, sliceF_apply, sliceI_apply, sliceG_apply, gates_apply, gates_apply, gates_apply]
  rfl

/-- The new hidden state of the block. -/
theorem hidden_apply (v0 v2 v23 : Vec Ideal S256x1024 .f32) (v4 v7 : Vec Ideal S1024x4096 .bf16) (v11 : Vec Ideal S1x4096 .f32) (r : Fin 256) (q : Fin 1024) :
    k0_pay4 (F := Ideal) v0 v2 v4 v7 v11 v23 (ix2 r q) = newHidden (n := 256) v0 v2 v23 v4 v7 (rowOf v11) r q := by
  dsimp only [k0_pay4]
  rw [mulf_apply, logistic_at, tanh_at, sliceO_apply, gates_apply, cell_apply]
  rfl

/-- The output of the block. -/
theorem out_apply (v0 v2 v23 : Vec Ideal S256x1024 .f32) (v4 v7 : Vec Ideal S1024x4096 .bf16) (v11 : Vec Ideal S1x4096 .f32)
    (v32 : Vec Ideal S1024x1024 .bf16) (v35 : Vec Ideal S1x1024 .f32) (r : Fin 256) (q : Fin 1024) :
    k0_pay1 (F := Ideal) (k0_pay5 (F := Ideal) v0 v2 v4 v7 v11 v23 v32) v35 (ix2 r q)
      = output (n := 256) v0 v2 v23 v4 v7 (rowOf v11) v32 (rowOf v35) r q := by
  dsimp only [k0_pay1, k0_pay5]
  rw [addf_apply, shapeCast_self, shapeCast_self, outProduct_apply, outBias_apply]
  unfold output
  refine congrArg₂ (· + ·) (Finset.sum_congr rfl fun k _ => ?_) rfl
  rw [truncf_apply, hidden_apply]

end Cert.KernelIdeal.CellValue

end
-- ==== Proof.CellArrays.lean ====
/-
  From blocks to arrays, on the extended reals.

  Point t's three input blocks are rows 256 t … 256 t + 255 of x, h and the cell state; the five weight windows are
  their arrays whole at every point. So what point t writes back is rows 256 t … 256 t + 255 of the LSTM cell of the
  WHOLE batch, and the sixteen write-backs tile each 4096 × 1024 result: after the run the three result arrays are the
  new hidden state, the new cell state and the output of the whole batch, over the weights as the host operations
  laid them out.
-/
import proofs.«111151_j37245956391346_2_alg».proof.Proof.CellRun
import proofs.«111151_j37245956391346_2_alg».proof.Proof.CellPayload
import Idealize.ShloMosaic.Lib.Pipeline.Value
import Idealize.ShloMosaic.Lib.StableHlo.Run

set_option maxRecDepth 16384

noncomputable section

namespace Cert.KernelIdeal.CellValue

open Cert.KernelIdeal Cert.KernelIdeal.Gen Cert.KernelIdeal.Cell Cert.LstmSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The windows' block indices over the grid: the six row windows are at block (t, 0), the five weight windows at
    block (0, 0). -/
theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem point_lt (t : Fin cfg0.N) : t.val < 16 := lt_of_lt_of_eq t.isLt N_0

/-- Row r of point t's block is row 256 t + r of the batch. -/
def rowAt (t : Fin cfg0.N) (r : Fin 256) : Fin 4096 := ⟨256 * t.val + r.val, by have := point_lt t; have := r.isLt; omega⟩

/-! ## The input blocks -/

theorem rows0_apply (c : Dev nD) (t : Fin cfg0.N) (r : Fin 256) (k : Fin 1024) :
    (iblk m c 0 t : S256x1024.Idx → EReal) (ix2 r k) = (V m c main_arg0 : S4096x1024.Idx → EReal) (ix2 (rowAt t r) k) := by
  have hi := blockIdx t
  unfold iblk
  rw [View.read_apply]
  show (V m c main_arg0 : S4096x1024.Idx → EReal) _ = _
  refine congrArg (V m c main_arg0 : S4096x1024.Idx → EReal) (funext fun a => Fin.ext ?_)
  match a with
  | ⟨0, _⟩ => show win0_0.index t (0 : Fin 2) * 256 + 1 * r.val = 256 * t.val + r.val; rw [hi.1]; omega
  | ⟨1, _⟩ => show win0_0.index t (1 : Fin 2) * 1024 + 1 * k.val = k.val; rw [hi.2.1]; omega

theorem rows1_apply (c : Dev nD) (t : Fin cfg0.N) (r : Fin 256) (k : Fin 1024) :
    (iblk m c 1 t : S256x1024.Idx → EReal) (ix2 r k) = (V m c main_arg1 : S4096x1024.Idx → EReal) (ix2 (rowAt t r) k) := by
  have hi := blockIdx t
  unfold iblk
  rw [View.read_apply]
  show (V m c main_arg1 : S4096x1024.Idx → EReal) _ = _
  refine congrArg (V m c main_arg1 : S4096x1024.Idx → EReal) (funext fun a => Fin.ext ?_)
  match a with
  | ⟨0, _⟩ => show win0_1.index t (0 : Fin 2) * 256 + 1 * r.val = 256 * t.val + r.val; rw [hi.2.2.1]; omega
  | ⟨1, _⟩ => show win0_1.index t (1 : Fin 2) * 1024 + 1 * k.val = k.val; rw [hi.2.2.2.1]; omega

theorem rows2_apply (c : Dev nD) (t : Fin cfg0.N) (r : Fin 256) (k : Fin 1024) :
    (iblk m c 2 t : S256x1024.Idx → EReal) (ix2 r k) = (V m c main_arg2 : S4096x1024.Idx → EReal) (ix2 (rowAt t r) k) := by
  have hi := blockIdx t
  unfold iblk
  rw [View.read_apply]
  show (V m c main_arg2 : S4096x1024.Idx → EReal) _ = _
  refine congrArg (V m c main_arg2 : S4096x1024.Idx → EReal) (funext fun a => Fin.ext ?_)
  match a with
  | ⟨0, _⟩ => show win0_2.index t (0 : Fin 2) * 256 + 1 * r.val = 256 * t.val + r.val; rw [hi.2.2.2.2.1]; omega
  | ⟨1, _⟩ => show win0_2.index t (1 : Fin 2) * 1024 + 1 * k.val = k.val; rw [hi.2.2.2.2.2.1]; omega

theorem whole3 (c : Dev nD) (t : Fin cfg0.N) : (iblk m c 3 t : S1024x4096.Idx → EReal) = (V m c main_v11 : S1024x4096.Idx → EReal) := by
  have hi := blockIdx t
  funext y
  unfold iblk
  rw [View.read_apply]
  show (V m c main_v11 : S1024x4096.Idx → EReal) _ = _
  refine congrArg (V m c main_v11 : S1024x4096.Idx → EReal) (funext fun a => Fin.ext ?_)
  match a with
  | ⟨0, _⟩ => show win0_3.index t (0 : Fin 2) * 1024 + 1 * (y 0).val = (y 0).val; rw [hi.2.2.2.2.2.2.2.2.2.2.2.2.1]; omega
  | ⟨1, _⟩ => show win0_3.index t (1 : Fin 2) * 4096 + 1 * (y 1).val = (y 1).val; rw [hi.2.2.2.2.2.2.2.2.2.2.2.2.2.1]; omega

theorem whole4 (c : Dev nD) (t : Fin cfg0.N) : (iblk m c 4 t : S1024x4096.Idx → EReal) = (V m c main_v12 : S1024x4096.Idx → EReal) := by
  have hi := blockIdx t
  funext y
  unfold iblk
  rw [View.read_apply]
  show (V m c main_v12 : S1024x4096.Idx → EReal) _ = _
  refine congrArg (V m c main_v12 : S1024x4096.Idx → EReal) (funext fun a => Fin.ext ?_)
  match a with
  | ⟨0, _⟩ => show win0_4.index t (0 : Fin 2) * 1024 + 1 * (y 0).val = (y 0).val; rw [hi.2.2.2.2.2.2.2.2.2.2.2.2.2.2.1]; omega
  | ⟨1, _⟩ => show win0_4.index t (1 : Fin 2) * 4096 + 1 * (y 1).val = (y 1).val; rw [hi.2.2.2.2.2.2.2.2.2.2.2.2.2.2.2.1]; omega

theorem whole5 (c : Dev nD) (t : Fin cfg0.N) : (iblk m c 5 t : S1x4096.Idx → EReal) = (V m c main_v15 : S1x4096.Idx → EReal) := by
  have hi := blockIdx t
  funext y
  unfold iblk
  rw [View.read_apply]
  show (V m c main_v15 : S1x4096.Idx → EReal) _ = _
  refine congrArg (V m c main_v15 : S1x4096.Idx → EReal) (funext fun a => Fin.ext ?_)
  match a with
  | ⟨0, _⟩ => show win0_5.index t (0 : Fin 2) * 1 + 1 * (y 0).val = (y 0).val; rw [hi.2.2.2.2.2.2.2.2.2.2.2.2.2.2.2.2.1]; omega
  | ⟨1, _⟩ => show win0_5.index t (1 : Fin 2) * 4096 + 1 * (y 1).val = (y 1).val; rw [hi.2.2.2.2.2.2.2.2.2.2.2.2.2.2.2.2.2.1]; omega

theorem whole6 (c : Dev nD) (t : Fin cfg0.N) : (iblk m c 6 t : S1024x1024.Idx → EReal) = (V m c main_v14 : S1024x1024.Idx → EReal) := by
  have hi := blockIdx t
  funext y
  unfold iblk
  rw [View.read_apply]
  show (V m c main_v14 : S1024x1024.Idx → EReal) _ = _
  refine congrArg (V m c main_v14 : S1024x1024.Idx → EReal) (funext fun a => Fin.ext ?_)
  match a with
  | ⟨0, _⟩ => show win0_6.index t (0 : Fin 2) * 1024 + 1 * (y 0).val = (y 0).val; rw [hi.2.2.2.2.2.2.2.2.2.2.2.2.2.2.2.2.2.2.1]; omega
  | ⟨1, _⟩ => show win0_6.index t (1 : Fin 2) * 1024 + 1 * (y 1).val = (y 1).val; rw [hi.2.2.2.2.2.2.2.2.2.2.2.2.2.2.2.2.2.2.2.1]; omega

theorem whole7 (c : Dev nD) (t : Fin cfg0.N) : (iblk m c 7 t : S1x1024.Idx → EReal) = (V m c main_v16 : S1x1024.Idx → EReal) := by
  have hi := blockIdx t
  funext y
  unfold iblk
  rw [View.read_apply]
  show (V m c main_v16 : S1x1024.Idx → EReal) _ = _
  refine congrArg (V m c main_v16 : S1x1024.Idx → EReal) (funext fun a => Fin.ext ?_)
  match a with
  | ⟨0, _⟩ => show win0_7.index t (0 : Fin 2) * 1 + 1 * (y 0).val = (y 0).val; rw [hi.2.2.2.2.2.2.2.2.2.2.2.2.2.2.2.2.2.2.2.2.1]; omega
  | ⟨1, _⟩ => show win0_7.index t (1 : Fin 2) * 1024 + 1 * (y 1).val = (y 1).val; rw [hi.2.2.2.2.2.2.2.2.2.2.2.2.2.2.2.2.2.2.2.2.2]; omega

/-! ## The three results as whole arrays -/

/-- The new hidden state of the whole batch, over the arrays as the region finds them. -/
def hidArr (c : Dev nD) : S4096x1024.Idx → EReal := fun i =>
  newHidden (n := 4096) (V m c main_arg0) (V m c main_arg1) (V m c main_arg2) (V m c main_v11) (V m c main_v12) (rowOf (V m c main_v15)) (i 0) (i 1)

/-- Entry (r, q) of what point t leaves in the new hidden state's buffer is entry (256 t + r, q) of the whole batch's. -/
theorem hid_entry (c : Dev nD) (t : Fin cfg0.N) (y : S256x1024.Idx) :
    hidBlk (iblk m c 0 t) (iblk m c 1 t) (iblk m c 2 t) (iblk m c 3 t) (iblk m c 4 t) (iblk m c 5 t) y
      = hidArr m c (ix2 (rowAt t (y 0)) (y 1)) := by
  obtain ⟨r, q, rfl⟩ : ∃ (r : Fin 256) (q : Fin 1024), y = ix2 r q := ⟨y 0, y 1, eq_ix2 y⟩
  show _ = hidArr m c (ix2 (rowAt t r) q)
  unfold hidBlk
  rw [View.canon_unit_zero hz]
  simp only [View.ld_unit_zero (S := S256x1024) hz, View.ld_unit_zero (S := S1024x4096) hz, View.ld_unit_zero (S := S1x4096) hz, View.ld_unit_zero (S := S1024x1024) hz, View.ld_unit_zero (S := S1x1024) hz]
  rw [hidden_apply, whole3, whole4, whole5]
  exact newHidden_rows _ _ _ _ _ _ _ _ _ r (rowAt t r) (fun k => rows0_apply m c t r k) (fun k => rows1_apply m c t r k) (fun k => rows2_apply m c t r k) q

/-- What point t writes back is block t of the whole batch's new hidden state. -/
theorem flushed_hid (c : Dev nD) (t : Fin cfg0.N) :
    (dats m 0 c).flushed 8 t = ((cfg0.win 8).blk t).view.read (Elt Ideal) (hidArr m c) := by
  have hi := blockIdx t
  show (cfg0.win 8).cut (grid0.coords t) ((dats m 0 c).after 8 t) = _
  rw [after_hid]
  funext y
  rw [View.read_apply]
  show hidBlk (iblk m c 0 t) (iblk m c 1 t) (iblk m c 2 t) (iblk m c 3 t) (iblk m c 4 t) (iblk m c 5 t) y = hidArr m c _
  refine (hid_entry m c t y).trans (congrArg (hidArr m c) (funext fun a => Fin.ext ?_))
  match a with
  | ⟨0, _⟩ => show 256 * t.val + (y 0).val = win0_8.index t (0 : Fin 2) * 256 + 1 * (y 0).val; rw [hi.2.2.2.2.2.2.1]; omega
  | ⟨1, _⟩ => show (y 1).val = win0_8.index t (1 : Fin 2) * 1024 + 1 * (y 1).val; rw [hi.2.2.2.2.2.2.2.1]; omega

/-- An index is in point t's block iff each coordinate is in the block's range on its axis. -/
theorem mem_blk_hid (t : Fin cfg0.N) (i : S4096x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v17_0).slice (win0_8.rect t)).set ↔ _
  rw [View.set_slice_whole, Rect.mem_set_unit]
  exact Iff.rfl

/-- Row p of the result is in the block of point p / 256. -/
theorem cover_hid (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  have hN : cfg0.N = 16 := N_0
  refine ⟨⟨(i 0).val / 256, by rw [hN]; omega⟩, flush0_8 _, ?_⟩
  have hi := blockIdx ⟨(i 0).val / 256, by rw [hN]; omega⟩
  rw [mem_blk_hid]
  intro a
  match a with
  | ⟨0, _⟩ =>
    show win0_8.index _ (0 : Fin 2) * 256 ≤ (i 0).val ∧ (i 0).val < win0_8.index _ (0 : Fin 2) * 256 + 256
    rw [hi.2.2.2.2.2.2.1]; show (i 0).val / 256 * 256 ≤ (i 0).val ∧ (i 0).val < (i 0).val / 256 * 256 + 256; omega
  | ⟨1, _⟩ =>
    show win0_8.index _ (1 : Fin 2) * 1024 ≤ (i 1).val ∧ (i 1).val < win0_8.index _ (1 : Fin 2) * 1024 + 1024
    rw [hi.2.2.2.2.2.2.2.1]; omega

/-- After the run the array is the whole batch's new hidden state. -/
theorem final_hid (c : Dev nD) : (dats m 0 c).arrAt 8 cfg0.N = hidArr m c :=
  (dats m 0 c).arrAt_eq_of_cover 8 (hidArr m c) (fun t _ => flushed_hid m c t) cover_hid

/-- The new cell state of the whole batch, over the arrays as the region finds them. -/
def cellArr (c : Dev nD) : S4096x1024.Idx → EReal := fun i =>
  newCell (n := 4096) (V m c main_arg0) (V m c main_arg1) (V m c main_arg2) (V m c main_v11) (V m c main_v12) (rowOf (V m c main_v15)) (i 0) (i 1)

/-- Entry (r, q) of what point t leaves in the new cell state's buffer is entry (256 t + r, q) of the whole batch's. -/
theorem cell_entry (c : Dev nD) (t : Fin cfg0.N) (y : S256x1024.Idx) :
    cellBlk (iblk m c 0 t) (iblk m c 1 t) (iblk m c 2 t) (iblk m c 3 t) (iblk m c 4 t) (iblk m c 5 t) y
      = cellArr m c (ix2 (rowAt t (y 0)) (y 1)) := by
  obtain ⟨r, q, rfl⟩ : ∃ (r : Fin 256) (q : Fin 1024), y = ix2 r q := ⟨y 0, y 1, eq_ix2 y⟩
  show _ = cellArr m c (ix2 (rowAt t r) q)
  unfold cellBlk
  rw [View.canon_unit_zero hz]
  simp only [View.ld_unit_zero (S := S256x1024) hz, View.ld_unit_zero (S := S1024x4096) hz, View.ld_unit_zero (S := S1x4096) hz, View.ld_unit_zero (S := S1024x1024) hz, View.ld_unit_zero (S := S1x1024) hz]
  rw [cell_apply, whole3, whole4, whole5]
  exact newCell_rows _ _ _ _ _ _ _ _ _ r (rowAt t r) (fun k => rows0_apply m c t r k) (fun k => rows1_apply m c t r k) (fun k => rows2_apply m c t r k) q

/-- What point t writes back is block t of the whole batch's new cell state. -/
theorem flushed_cell (c : Dev nD) (t : Fin cfg0.N) :
    (dats m 0 c).flushed 9 t = ((cfg0.win 9).blk t).view.read (Elt Ideal) (cellArr m c) := by
  have hi := blockIdx t
  show (cfg0.win 9).cut (grid0.coords t) ((dats m 0 c).after 9 t) = _
  rw [after_cell]
  funext y
  rw [View.read_apply]
  show cellBlk (iblk m c 0 t) (iblk m c 1 t) (iblk m c 2 t) (iblk m c 3 t) (iblk m c 4 t) (iblk m c 5 t) y = cellArr m c _
  refine (cell_entry m c t y).trans (congrArg (cellArr m c) (funext fun a => Fin.ext ?_))
  match a with
  | ⟨0, _⟩ => show 256 * t.val + (y 0).val = win0_9.index t (0 : Fin 2) * 256 + 1 * (y 0).val; rw [hi.2.2.2.2.2.2.2.2.1]; omega
  | ⟨1, _⟩ => show (y 1).val = win0_9.index t (1 : Fin 2) * 1024 + 1 * (y 1).val; rw [hi.2.2.2.2.2.2.2.2.2.1]; omega

/-- An index is in point t's block iff each coordinate is in the block's range on its axis. -/
theorem mem_blk_cell (t : Fin cfg0.N) (i : S4096x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v17_1).slice (win0_9.rect t)).set ↔ _
  rw [View.set_slice_whole, Rect.mem_set_unit]
  exact Iff.rfl

/-- Row p of the result is in the block of point p / 256. -/
theorem cover_cell (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hN : cfg0.N = 16 := N_0
  refine ⟨⟨(i 0).val / 256, by rw [hN]; omega⟩, flush0_9 _, ?_⟩
  have hi := blockIdx ⟨(i 0).val / 256, by rw [hN]; omega⟩
  rw [mem_blk_cell]
  intro a
  match a with
  | ⟨0, _⟩ =>
    show win0_9.index _ (0 : Fin 2) * 256 ≤ (i 0).val ∧ (i 0).val < win0_9.index _ (0 : Fin 2) * 256 + 256
    rw [hi.2.2.2.2.2.2.2.2.1]; show (i 0).val / 256 * 256 ≤ (i 0).val ∧ (i 0).val < (i 0).val / 256 * 256 + 256; omega
  | ⟨1, _⟩ =>
    show win0_9.index _ (1 : Fin 2) * 1024 ≤ (i 1).val ∧ (i 1).val < win0_9.index _ (1 : Fin 2) * 1024 + 1024
    rw [hi.2.2.2.2.2.2.2.2.2.1]; omega

/-- After the run the array is the whole batch's new cell state. -/
theorem final_cell (c : Dev nD) : (dats m 0 c).arrAt 9 cfg0.N = cellArr m c :=
  (dats m 0 c).arrAt_eq_of_cover 9 (cellArr m c) (fun t _ => flushed_cell m c t) cover_cell

/-- The output of the whole batch, over the arrays as the region finds them. -/
def outArr (c : Dev nD) : S4096x1024.Idx → EReal := fun i =>
  output (n := 4096) (V m c main_arg0) (V m c main_arg1) (V m c main_arg2) (V m c main_v11) (V m c main_v12) (rowOf (V m c main_v15)) (V m c main_v14) (rowOf (V m c main_v16)) (i 0) (i 1)

/-- Entry (r, q) of what point t leaves in the output's buffer is entry (256 t + r, q) of the whole batch's. -/
theorem out_entry (c : Dev nD) (t : Fin cfg0.N) (y : S256x1024.Idx) :
    outBlk (iblk m c 0 t) (iblk m c 1 t) (iblk m c 2 t) (iblk m c 3 t) (iblk m c 4 t) (iblk m c 5 t) (iblk m c 6 t) (iblk m c 7 t) y
      = outArr m c (ix2 (rowAt t (y 0)) (y 1)) := by
  obtain ⟨r, q, rfl⟩ : ∃ (r : Fin 256) (q : Fin 1024), y = ix2 r q := ⟨y 0, y 1, eq_ix2 y⟩
  show _ = outArr m c (ix2 (rowAt t r) q)
  unfold outBlk
  rw [View.canon_unit_zero hz]
  simp only [View.ld_unit_zero (S := S256x1024) hz, View.ld_unit_zero (S := S1024x4096) hz, View.ld_unit_zero (S := S1x4096) hz, View.ld_unit_zero (S := S1024x1024) hz, View.ld_unit_zero (S := S1x1024) hz]
  rw [out_apply, whole3, whole4, whole5, whole6, whole7]
  exact output_rows _ _ _ _ _ _ _ _ _ _ _ r (rowAt t r) (fun k => rows0_apply m c t r k) (fun k => rows1_apply m c t r k) (fun k => rows2_apply m c t r k) q

/-- What point t writes back is block t of the whole batch's output. -/
theorem flushed_out (c : Dev nD) (t : Fin cfg0.N) :
    (dats m 0 c).flushed 10 t = ((cfg0.win 10).blk t).view.read (Elt Ideal) (outArr m c) := by
  have hi := blockIdx t
  show (cfg0.win 10).cut (grid0.coords t) ((dats m 0 c).after 10 t) = _
  rw [after_out]
  funext y
  rw [View.read_apply]
  show outBlk (iblk m c 0 t) (iblk m c 1 t) (iblk m c 2 t) (iblk m c 3 t) (iblk m c 4 t) (iblk m c 5 t) (iblk m c 6 t) (iblk m c 7 t) y = outArr m c _
  refine (out_entry m c t y).trans (congrArg (outArr m c) (funext fun a => Fin.ext ?_))
  match a with
  | ⟨0, _⟩ => show 256 * t.val + (y 0).val = win0_10.index t (0 : Fin 2) * 256 + 1 * (y 0).val; rw [hi.2.2.2.2.2.2.2.2.2.2.1]; omega
  | ⟨1, _⟩ => show (y 1).val = win0_10.index t (1 : Fin 2) * 1024 + 1 * (y 1).val; rw [hi.2.2.2.2.2.2.2.2.2.2.2.1]; omega

/-- An index is in point t's block iff each coordinate is in the block's range on its axis. -/
theorem mem_blk_out (t : Fin cfg0.N) (i : S4096x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v17_2).slice (win0_10.rect t)).set ↔ _
  rw [View.set_slice_whole, Rect.mem_set_unit]
  exact Iff.rfl

/-- Row p of the result is in the block of point p / 256. -/
theorem cover_out (i : S4096x1024.Idx) :
    ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 16 := N_0
  refine ⟨⟨(i 0).val / 256, by rw [hN]; omega⟩, flush0_10 _, ?_⟩
  have hi := blockIdx ⟨(i 0).val / 256, by rw [hN]; omega⟩
  rw [mem_blk_out]
  intro a
  match a with
  | ⟨0, _⟩ =>
    show win0_10.index _ (0 : Fin 2) * 256 ≤ (i 0).val ∧ (i 0).val < win0_10.index _ (0 : Fin 2) * 256 + 256
    rw [hi.2.2.2.2.2.2.2.2.2.2.1]; show (i 0).val / 256 * 256 ≤ (i 0).val ∧ (i 0).val < (i 0).val / 256 * 256 + 256; omega
  | ⟨1, _⟩ =>
    show win0_10.index _ (1 : Fin 2) * 1024 ≤ (i 1).val ∧ (i 1).val < win0_10.index _ (1 : Fin 2) * 1024 + 1024
    rw [hi.2.2.2.2.2.2.2.2.2.2.2.1]; omega

/-- After the run the array is the whole batch's output. -/
theorem final_out (c : Dev nD) : (dats m 0 c).arrAt 10 cfg0.N = outArr m c :=
  (dats m 0 c).arrAt_eq_of_cover 10 (outArr m c) (fun t _ => flushed_out m c t) cover_out

/-! ## The run, read -/

/-- Every weakly fair execution of @main terminates with the three result arrays at the whole batch's new hidden
    state, new cell state and output, and the seventeen argument arrays as launched. -/
theorem run : θ_run defs (onTc (τ := τ) (main (F := Ideal))) ⟨m, fun _ => 0, ρ⟩ fun r => ∀ c : Dev nD,
      r.2.mem ((c.tc : Thread nD τ).loc main_v17_0) = hidArr m c
      ∧ r.2.mem ((c.tc : Thread nD τ).loc main_v17_1) = cellArr m c
      ∧ r.2.mem ((c.tc : Thread nD τ).loc main_v17_2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨((h c).1 8).trans (final_hid m c), ((h c).1 9).trans (final_cell m c), ((h c).1 10).trans (final_out m c), kept_args m r h c⟩)
    (run_main m ρ)

end Cert.KernelIdeal.CellValue

end
-- ==== Proof.Layout.lean ====
/-
  The arrays the region finds, as the host operations lay them out, are the arrays the reference builds: the four
  gates' weight matrices stacked and transposed (narrowed first, which changes nothing on the extended reals), the
  output matrix transposed, and each bias vector viewed as one row.
-/
import proofs.«111151_j37245956391346_2_alg».proof.Proof.CellArrays
import proofs.«111151_j37245956391346_2_alg».proof.Proof.Gen.ReferenceIdeal.Read

set_option maxRecDepth 16384

noncomputable section

open Idealize.ShloMosaic Idealize.ShloMosaic.TcCoe Idealize.SL.Sem Idealize.ShloMosaic.ValueIdx

namespace Cert.KernelIdeal.CellValue

open Cert.KernelIdeal Cert.KernelIdeal.Gen Cert.KernelIdeal.Cell Cert.LstmSpec
open Cert.ReferenceIdeal.Read (val_main_v2 val_main_v3 val_main_v5 val_main_v39)

variable (m : (ℓ : Loc nD τ sig) → Buf (Elt Ideal) ℓ) (c : Dev nD)

/-! ## The arrays the host operations lay out -/

/-- The input product's weights: the four gates' matrices stacked, then transposed. -/
theorem layout_wx : (V m c main_v11 : S1024x4096.Idx → EReal)
    = val_main_v3 (F := Ideal) (m ((c.tc : Thread nD τ).loc main_arg3)) (m ((c.tc : Thread nD τ).loc main_arg6)) (m ((c.tc : Thread nD τ).loc main_arg9)) (m ((c.tc : Thread nD τ).loc main_arg12)) := by
  dsimp only [V, hostOps0]
  after_results
  rfl

/-- The hidden product's weights, likewise. -/
theorem layout_wh : (V m c main_v12 : S1024x4096.Idx → EReal)
    = val_main_v5 (F := Ideal) (m ((c.tc : Thread nD τ).loc main_arg5)) (m ((c.tc : Thread nD τ).loc main_arg8)) (m ((c.tc : Thread nD τ).loc main_arg11)) (m ((c.tc : Thread nD τ).loc main_arg14)) := by
  dsimp only [V, hostOps0]
  after_results
  rfl

/-- The output matrix, transposed. -/
theorem layout_wo : (V m c main_v14 : S1024x1024.Idx → EReal) = val_main_v39 (F := Ideal) (m ((c.tc : Thread nD τ).loc main_arg15)) := by
  dsimp only [V, hostOps0]
  after_results
  rfl

/-- The gate biases stacked, seen as one row. -/
theorem layout_b : (rowOf (V m c main_v15 : S1x4096.Idx → EReal) : Vect 4096)
    = val_main_v2 (F := Ideal) (m ((c.tc : Thread nD τ).loc main_arg4)) (m ((c.tc : Thread nD τ).loc main_arg7)) (m ((c.tc : Thread nD τ).loc main_arg10)) (m ((c.tc : Thread nD τ).loc main_arg13)) := by
  have e : (V m c main_v15 : S1x4096.Idx → EReal)
      = shapeCast S1x4096 (val_main_v2 (F := Ideal) (m ((c.tc : Thread nD τ).loc main_arg4)) (m ((c.tc : Thread nD τ).loc main_arg7)) (m ((c.tc : Thread nD τ).loc main_arg10)) (m ((c.tc : Thread nD τ).loc main_arg13))) Facts₀.shapeCasts_S4096_S1x4096 := by
    dsimp only [V, hostOps0]
    after_results
    rfl
  funext i
  show (V m c main_v15 : S1x4096.Idx → EReal) (ix2 (0 : Fin 1) (i 0)) = _
  rw [e]
  refine (shapeCast_addUnit_apply ![4096] _ _ (ix2 (0 : Fin 1) (i 0))).trans (congrArg _ (funext fun a => ?_))
  match a with
  | ⟨0, _⟩ => rfl

/-- The output bias, seen as one row. -/
theorem layout_bo : (rowOf (V m c main_v16 : S1x1024.Idx → EReal) : Vect 1024) = (m ((c.tc : Thread nD τ).loc main_arg16)) := by
  have e : (V m c main_v16 : S1x1024.Idx → EReal) = shapeCast S1x1024 (m ((c.tc : Thread nD τ).loc main_arg16)) Facts₀.shapeCasts_S1024_S1x1024 := by
    dsimp only [V, hostOps0]
    after_results
    rfl
  funext i
  show (V m c main_v16 : S1x1024.Idx → EReal) (ix2 (0 : Fin 1) (i 0)) = _
  rw [e]
  refine (shapeCast_addUnit_apply ![1024] _ _ (ix2 (0 : Fin 1) (i 0))).trans (congrArg _ (funext fun a => ?_))
  match a with
  | ⟨0, _⟩ => rfl

end Cert.KernelIdeal.CellValue

end
-- ==== Proof.RefCell.lean ====
/-
  The reference program's three results, read entry by entry on the extended reals: they are the LSTM cell of the
  whole batch, over the gate weights stacked and transposed, and the gate biases stacked, as the reference's own first
  operations lay them out. The reference spells the sigmoid out as 1 / (1 + e^(-z)) with the float literal 1.0.
-/
import proofs.«111151_j37245956391346_2_alg».proof.Proof.Gen.ReferenceIdeal.Read
import proofs.«111151_j37245956391346_2_alg».proof.Proof.LstmSpec

noncomputable section

namespace Cert.ReferenceIdeal.RefCell

open Cert.ReferenceIdeal Cert.ReferenceIdeal.Read Cert.LstmSpec
open Idealize.ShloMosaic Idealize.ShloMosaic.ValueIdx

/-- The float word 0x3F800000 is the number one. -/
theorem one_lit : Ideal.ofBits .f32 0x3F800000#32 = (1 : EReal) := by
  simp [Ideal.ofBits, Ideal.ieee, -EReal.coe_mul]; norm_num

variable (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 x15 : (⟨S1024x1024, .f32⟩ : BufTy).Contents (Elt Ideal)) (x16 : (⟨S1024, .f32⟩ : BufTy).Contents (Elt Ideal))

/-- The gate pre-activations. -/
theorem gates_apply (p : Fin 4096) (j : Fin 4096) :
    val_main_v10 (F := Ideal) x0 x1 x3 x4 x5 x6 x7 x8 x9 x10 x11 x12 x13 x14 (ix2 p j) = gate (n := 4096) x0 x1 (val_main_v3 (F := Ideal) x3 x6 x9 x12) (val_main_v5 (F := Ideal) x5 x8 x11 x14) (val_main_v2 (F := Ideal) x4 x7 x10 x13) p j := by
  rw [val_main_v10_apply, val_main_v7_apply, val_main_v4_apply, val_main_v6_apply, val_main_v9_apply, val_main_v8_apply]
  have e1 : ∀ k : Fin 1024, lidx_main_v4 (ix2 p j) k = ix2 p k := fun k => funext fun a => Fin.ext (by match a with | ⟨0, _⟩ => rfl | ⟨1, _⟩ => rfl)
  have e2 : ∀ k : Fin 1024, ridx_main_v4 (ix2 p j) k = ix2 k j := fun k => funext fun a => Fin.ext (by match a with | ⟨0, _⟩ => rfl | ⟨1, _⟩ => rfl)
  have e3 : ∀ k : Fin 1024, lidx_main_v6 (ix2 p j) k = ix2 p k := fun k => funext fun a => Fin.ext (by match a with | ⟨0, _⟩ => rfl | ⟨1, _⟩ => rfl)
  have e4 : ∀ k : Fin 1024, ridx_main_v6 (ix2 p j) k = ix2 k j := fun k => funext fun a => Fin.ext (by match a with | ⟨0, _⟩ => rfl | ⟨1, _⟩ => rfl)
  have e5 : idx_main_v8 (idx_main_v9 (ix2 p j)) = ix1 j := funext fun a => Fin.ext (by match a with | ⟨0, _⟩ => rfl)
  simp only [e1, e2, e3, e4, e5]
  rfl

/-- The forget gate: the sigmoid of its columns of the pre-activations. -/
theorem sigF_apply (p : Fin 4096) (q : Fin 1024) :
    val_main_v20 (F := Ideal) x0 x1 x3 x4 x5 x6 x7 x8 x9 x10 x11 x12 x13 x14 (ix2 p q) = Ideal.logistic (gate (n := 4096) x0 x1 (val_main_v3 (F := Ideal) x3 x6 x9 x12) (val_main_v5 (F := Ideal) x5 x8 x11 x14) (val_main_v2 (F := Ideal) x4 x7 x10 x13) p (colF q)) := by
  rw [val_main_v20_apply, val_main_v19_apply, val_main_cst_0_apply, val_main_v18_apply, val_main_v17_apply, val_main_cst_apply,
    val_main_v16_apply, val_main_v15_apply, val_main_v11_apply]
  have e : idx_main_v11 (ix2 p q) = ix2 p (colF q) := funext fun a => Fin.ext (by match a with | ⟨0, _⟩ => rfl | ⟨1, _⟩ => rfl)
  rw [e, gates_apply]
  simp only [Ideal.hostDivf_def, Ideal.ofBits_def, Ideal.addf_def, Ideal.hostUnary_exp_def, Ideal.hostNegf_def, Ideal.negf_def, one_lit]
  rfl

/-- The input gate: the sigmoid of its columns of the pre-activations. -/
theorem sigI_apply (p : Fin 4096) (q : Fin 1024) :
    val_main_v26 (F := Ideal) x0 x1 x3 x4 x5 x6 x7 x8 x9 x10 x11 x12 x13 x14 (ix2 p q) = Ideal.logistic (gate (n := 4096) x0 x1 (val_main_v3 (F := Ideal) x3 x6 x9 x12) (val_main_v5 (F := Ideal) x5 x8 x11 x14) (val_main_v2 (F := Ideal) x4 x7 x10 x13) p (colI q)) := by
  rw [val_main_v26_apply, val_main_v25_apply, val_main_cst_2_apply, val_main_v24_apply, val_main_v23_apply, val_main_cst_1_apply,
    val_main_v22_apply, val_main_v21_apply, val_main_v12_apply]
  have e : idx_main_v12 (ix2 p q) = ix2 p (colI q) := funext fun a => Fin.ext (by match a with | ⟨0, _⟩ => rfl | ⟨1, _⟩ => rfl)
  rw [e, gates_apply]
  simp only [Ideal.hostDivf_def, Ideal.ofBits_def, Ideal.addf_def, Ideal.hostUnary_exp_def, Ideal.hostNegf_def, Ideal.negf_def, one_lit]
  rfl

/-- The output gate: the sigmoid of its columns of the pre-activations. -/
theorem sigO_apply (p : Fin 4096) (q : Fin 1024) :
    val_main_v32 (F := Ideal) x0 x1 x3 x4 x5 x6 x7 x8 x9 x10 x11 x12 x13 x14 (ix2 p q) = Ideal.logistic (gate (n := 4096) x0 x1 (val_main_v3 (F := Ideal) x3 x6 x9 x12) (val_main_v5 (F := Ideal) x5 x8 x11 x14) (val_main_v2 (F := Ideal) x4 x7 x10 x13) p (colO q)) := by
  rw [val_main_v32_apply, val_main_v31_apply, val_main_cst_4_apply, val_main_v30_apply, val_main_v29_apply, val_main_cst_3_apply,
    val_main_v28_apply, val_main_v27_apply, val_main_v13_apply]
  have e : idx_main_v13 (ix2 p q) = ix2 p (colO q) := funext fun a => Fin.ext (by match a with | ⟨0, _⟩ => rfl | ⟨1, _⟩ => rfl)
  rw [e, gates_apply]
  simp only [Ideal.hostDivf_def, Ideal.ofBits_def, Ideal.addf_def, Ideal.hostUnary_exp_def, Ideal.hostNegf_def, Ideal.negf_def, one_lit]
  rfl

/-- The candidate: tanh of its columns of the pre-activations. -/
theorem cand_apply (p : Fin 4096) (q : Fin 1024) :
    val_main_v33 (F := Ideal) x0 x1 x3 x4 x5 x6 x7 x8 x9 x10 x11 x12 x13 x14 (ix2 p q) = Ideal.tanh (gate (n := 4096) x0 x1 (val_main_v3 (F := Ideal) x3 x6 x9 x12) (val_main_v5 (F := Ideal) x5 x8 x11 x14) (val_main_v2 (F := Ideal) x4 x7 x10 x13) p (colG q)) := by
  rw [val_main_v33_apply, val_main_v14_apply]
  have e : idx_main_v14 (ix2 p q) = ix2 p (colG q) := funext fun a => Fin.ext (by match a with | ⟨0, _⟩ => rfl | ⟨1, _⟩ => rfl)
  rw [e, gates_apply]
  rfl

/-- The reference's second result is the new cell state. -/
theorem cell_apply (p : Fin 4096) (q : Fin 1024) :
    val_main_v36 (F := Ideal) x0 x1 x2 x3 x4 x5 x6 x7 x8 x9 x10 x11 x12 x13 x14 (ix2 p q) = newCell (n := 4096) x0 x1 x2 (val_main_v3 (F := Ideal) x3 x6 x9 x12) (val_main_v5 (F := Ideal) x5 x8 x11 x14) (val_main_v2 (F := Ideal) x4 x7 x10 x13) p q := by
  rw [val_main_v36_apply, val_main_v34_apply, val_main_v35_apply, sigF_apply, sigI_apply, cand_apply]
  rfl

/-- The reference's first result is the new hidden state. -/
theorem hidden_apply (p : Fin 4096) (q : Fin 1024) :
    val_main_v38 (F := Ideal) x0 x1 x2 x3 x4 x5 x6 x7 x8 x9 x10 x11 x12 x13 x14 (ix2 p q) = newHidden (n := 4096) x0 x1 x2 (val_main_v3 (F := Ideal) x3 x6 x9 x12) (val_main_v5 (F := Ideal) x5 x8 x11 x14) (val_main_v2 (F := Ideal) x4 x7 x10 x13) p q := by
  rw [val_main_v38_apply, val_main_v37_apply, sigO_apply, cell_apply]
  rfl

/-- The reference's third result is the output. -/
theorem out_apply (p : Fin 4096) (q : Fin 1024) :
    val_main_v43 (F := Ideal) x0 x1 x2 x3 x4 x5 x6 x7 x8 x9 x10 x11 x12 x13 x14 x15 x16 (ix2 p q)
      = output (n := 4096) x0 x1 x2 (val_main_v3 (F := Ideal) x3 x6 x9 x12) (val_main_v5 (F := Ideal) x5 x8 x11 x14) (val_main_v2 (F := Ideal) x4 x7 x10 x13) (val_main_v39 (F := Ideal) x15) x16 p q := by
  rw [val_main_v43_apply, val_main_v40_apply, val_main_v42_apply, val_main_v41_apply]
  have e1 : ∀ k : Fin 1024, lidx_main_v40 (ix2 p q) k = ix2 p k := fun k => funext fun a => Fin.ext (by match a with | ⟨0, _⟩ => rfl | ⟨1, _⟩ => rfl)
  have e2 : ∀ k : Fin 1024, ridx_main_v40 (ix2 p q) k = ix2 k q := fun k => funext fun a => Fin.ext (by match a with | ⟨0, _⟩ => rfl | ⟨1, _⟩ => rfl)
  have e3 : idx_main_v41 (idx_main_v42 (ix2 p q)) = ix1 q := funext fun a => Fin.ext (by match a with | ⟨0, _⟩ => rfl)
  simp only [e1, e2, e3, hidden_apply]
  rfl

end Cert.ReferenceIdeal.RefCell

end
-- ==== Proof.WordBody.lean ====
/-
  The frame of the LSTM-cell kernel as printed at the word level, at any float instance (the idealized program's
  text is the same, and so is this module's but for the program it speaks of).

  @main first lays the weights out on the host: the four gate matrices of each of the two gate products are
  stacked along the output axis and transposed, the output matrix is transposed, the biases are stacked and made
  rows. Then ONE region runs over 16 grid points; point t takes rows 256 t … 256 t + 255 of the input, the hidden
  state and the cell state, and the five weight arrays whole, and writes back rows 256 t … 256 t + 255 of the new
  hidden state, the new cell state and the output.

  Here: what each buffer holds when the region is entered (the host operations write none of the seventeen
  argument arrays), what the body leaves in its three output blocks as functions of its eight input blocks, the
  body's triple, and the run of @main with every output array named and every argument array unchanged.
-/
import proofs.«111151_j37245956391346_2_alg».proof.Proof.Gen.Kernel.Launch
import proofs.«111151_j37245956391346_2_alg».proof.Proof.Gen.Kernel.Skeleton
import proofs.«111151_j37245956391346_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that lay the weights out. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: every one of them writes a buffer of its own. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 1: every one of them writes a buffer of its own. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 2: every one of them writes a buffer of its own. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 3: every one of them writes a buffer of its own. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 4: every one of them writes a buffer of its own. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 5: every one of them writes a buffer of its own. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 6: every one of them writes a buffer of its own. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 7: every one of them writes a buffer of its own. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 8: every one of them writes a buffer of its own. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 9: every one of them writes a buffer of its own. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 10: every one of them writes a buffer of its own. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 11: every one of them writes a buffer of its own. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 12: every one of them writes a buffer of its own. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 13: every one of them writes a buffer of its own. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 14: every one of them writes a buffer of its own. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 15: every one of them writes a buffer of its own. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 16: every one of them writes a buffer of its own. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, cut from its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not: where it is not fetched
    its block index has not moved since the point before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not: where it is not fetched
    its block index has not moved since the point before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not: where it is not fetched
    its block index has not moved since the point before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not: where it is not fetched
    its block index has not moved since the point before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not: where it is not fetched
    its block index has not moved since the point before. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not: where it is not fetched
    its block index has not moved since the point before. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not: where it is not fetched
    its block index has not moved since the point before. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not: where it is not fetched
    its block index has not moved since the point before. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in its three output blocks -/

abbrev rRows : Rect S256x1024 := Rect.unit (s := S256x1024) ![0, 0] S256x1024.size inb_S256x1024_S256x1024_0_0
abbrev rGateW : Rect S1024x4096 := Rect.unit (s := S1024x4096) ![0, 0] S1024x4096.size inb_S1024x4096_S1024x4096_0_0
abbrev rGateB : Rect S1x4096 := Rect.unit (s := S1x4096) ![0, 0] S1x4096.size inb_S1x4096_S1x4096_0_0
abbrev rOutW : Rect S1024x1024 := Rect.unit (s := S1024x1024) ![0, 0] S1024x1024.size inb_S1024x1024_S1024x1024_0_0
abbrev rOutB : Rect S1x1024 := Rect.unit (s := S1x1024) ![0, 0] S1x1024.size inb_S1x1024_S1x1024_0_0

/-- The new cell state's block: forget gate times the old cell state plus input gate times candidate. -/
def cellBlk (x h cs : Vec F S256x1024 .f32) (wx wh : Vec F S1024x4096 .bf16) (b : Vec F S1x4096 .f32) : Vec F S256x1024 .f32 :=
  View.canon [⟨rRows, k0_pay3 (View.ld x rRows) (View.ld h rRows) (View.ld wx rGateW) (View.ld wh rGateW) (View.ld b rGateB) (View.ld cs rRows)⟩]

/-- The new hidden state's block: output gate times tanh of the new cell state. -/
def hidBlk (x h cs : Vec F S256x1024 .f32) (wx wh : Vec F S1024x4096 .bf16) (b : Vec F S1x4096 .f32) : Vec F S256x1024 .f32 :=
  View.canon [⟨rRows, k0_pay4 (View.ld x rRows) (View.ld h rRows) (View.ld wx rGateW) (View.ld wh rGateW) (View.ld b rGateB) (View.ld cs rRows)⟩]

/-- The output's block: the new hidden state through the output matrix, plus the output bias. -/
def outBlk (x h cs : Vec F S256x1024 .f32) (wx wh : Vec F S1024x4096 .bf16) (b : Vec F S1x4096 .f32) (wo : Vec F S1024x1024 .bf16) (bo : Vec F S1x1024 .f32) : Vec F S256x1024 .f32 :=
  View.canon [⟨rRows, k0_pay1 (k0_pay5 (View.ld x rRows) (View.ld h rRows) (View.ld wx rGateW) (View.ld wh rGateW) (View.ld b rGateB) (View.ld cs rRows) (View.ld wo rOutW)) (View.ld bo rOutB)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 4000000 in
/-- On whole staging buffers, the eight inputs' at contents `x … bo` and the three outputs' at anything, the body runs
    to a state with the inputs' as they were and the outputs' at `hidBlk`, `cellBlk`, `outBlk` of them. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1024x1024 .bf16) (harg7 : arg7.IsWhole) (arg8 : Memref sig .tc .vmem S1x1024 .f32) (harg8 : arg8.IsWhole)
    (arg9 : Memref sig .tc .vmem S256x1024 .f32) (harg9 : arg9.IsWhole) (arg10 : Memref sig .tc .vmem S256x1024 .f32) (harg10 : arg10.IsWhole)
    (arg11 : Memref sig .tc .vmem S256x1024 .f32) (harg11 : arg11.IsWhole)
    (x h cs : Vec F S256x1024 .f32) (wx wh : Vec F S1024x4096 .bf16) (b : Vec F S1x4096 .f32) (wo : Vec F S1024x1024 .bf16) (bo : Vec F S1x1024 .f32)
    (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare wx ∗ owns (c : Thread nD τ) arg5 fullShare wh ∗ owns (c : Thread nD τ) arg6 fullShare b
        ∗ owns (c : Thread nD τ) arg7 fullShare wo ∗ owns (c : Thread nD τ) arg8 fullShare bo
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x ∗ owns (c : Thread nD τ) arg2 fullShare h ∗ owns (c : Thread nD τ) arg3 fullShare cs
            ∗ owns (c : Thread nD τ) arg4 fullShare wx ∗ owns (c : Thread nD τ) arg5 fullShare wh ∗ owns (c : Thread nD τ) arg6 fullShare b
            ∗ owns (c : Thread nD τ) arg7 fullShare wo ∗ owns (c : Thread nD τ) arg8 fullShare bo
            ∗ owns (c : Thread nD τ) arg9 fullShare (hidBlk x h cs wx wh b) ∗ owns (c : Thread nD τ) arg10 fullShare (cellBlk x h cs wx wh b)
            ∗ owns (c : Thread nD τ) arg11 fullShare (outBlk x h cs wx wh b wo bo)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_rows _)
  isplitl [H10]
  · iexists _; isplitr
    swap; · iexact H10
    ipureintro
    exact View.read_writes_eq_canon _ _ _ (cover_rows _)
  iexists _; isplitr
  swap; · iexact H11
  ipureintro
  exact View.read_writes_eq_canon _ _ _ (cover_rows _)

end Cert.Kernel.Cell

end
-- ==== Proof.WordRun.lean ====
/-
  The run of the LSTM-cell program as printed at the word level: the pipeline's proof data (each input window's buffer keeps its block, each
  output window's buffer ends at the body's block for the point), the body obligation at a generic grid point, and
  the run of @main: every weakly fair execution terminates, each of the three result arrays holds what the sixteen
  write-backs left, and every argument array is as launched.
-/
import proofs.«111151_j37245956391346_2_alg».proof.Proof.WordBody

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block
    and the three outputs' at the body's blocks of the input blocks; nothing else carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hidBlk (iblk m c 0 t) (iblk m c 1 t) (iblk m c 2 t) (iblk m c 3 t) (iblk m c 4 t) (iblk m c 5 t)
    | ⟨9, _⟩ => cellBlk (iblk m c 0 t) (iblk m c 1 t) (iblk m c 2 t) (iblk m c 3 t) (iblk m c 4 t) (iblk m c 5 t)
    | ⟨10, _⟩ => outBlk (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_hid (c : Dev nD) (t : Fin cfg0.N) : (dats m 0 c).after 8 t = hidBlk (iblk m c 0 t) (iblk m c 1 t) (iblk m c 2 t) (iblk m c 3 t) (iblk m c 4 t) (iblk m c 5 t) := by dsimp only [dats]
theorem after_cell (c : Dev nD) (t : Fin cfg0.N) : (dats m 0 c).after 9 t = cellBlk (iblk m c 0 t) (iblk m c 1 t) (iblk m c 2 t) (iblk m c 3 t) (iblk m c 4 t) (iblk m c 5 t) := by dsimp only [dats]
theorem after_out (c : Dev nD) (t : Fin cfg0.N) : (dats m 0 c).after 10 t = outBlk (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_hid, after_cell, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array a window stages ends at what the write-backs left
    (an input: its entry contents), every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments after the run: the three the windows stage, read back through the proof data; the fourteen the
    host operations read, found as the region found them; none written before the region. -/
theorem kept_args (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c),
   ((h c).2 main_arg12 (Pipeline.mem_restRefs_of main_arg12 (by decide) (by decide))).trans (V_main_arg12 m c),
   ((h c).2 main_arg13 (Pipeline.mem_restRefs_of main_arg13 (by decide) (by decide))).trans (V_main_arg13 m c),
   ((h c).2 main_arg14 (Pipeline.mem_restRefs_of main_arg14 (by decide) (by decide))).trans (V_main_arg14 m c),
   ((h c).2 main_arg15 (Pipeline.mem_restRefs_of main_arg15 (by decide) (by decide))).trans (V_main_arg15 m c),
   ((h c).2 main_arg16 (Pipeline.mem_restRefs_of main_arg16 (by decide) (by decide))).trans (V_main_arg16 m c)⟩

/-- THE FRAME: @main runs to the end and leaves its seventeen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)) :=
  (θ_run defs _ _).mono (fun r h c => kept_args m r h c) (run_main m ρ)

end Cert.Kernel.Cell

end
-- ==== Proof.Bridge.lean ====
/-
  The two programs compute one function.

  The kernel's host operations stack the four gates' weight matrices and transpose the stack, as the reference's do;
  they narrow the weights first, which changes nothing on the extended reals. The biases are stacked and viewed as
  one row, and the kernel repeats that row down its block where the reference repeats it down the batch. So the
  region finds exactly the arrays the reference builds, and the three results are, entry by entry, the LSTM cell of
  the whole batch on both sides.
-/
import proofs.«111151_j37245956391346_2_alg».proof.Defs
import proofs.«111151_j37245956391346_2_alg».proof.Proof.Layout
import proofs.«111151_j37245956391346_2_alg».proof.Proof.RefCell
import proofs.«111151_j37245956391346_2_alg».proof.Proof.WordRun
import proofs.«111151_j37245956391346_2_alg».proof.Proof.Gen.Pre_finite_inputs

set_option maxRecDepth 16384

noncomputable section

open Idealize.ShloMosaic Idealize.ShloMosaic.TcCoe Idealize.SL.Sem Idealize.ShloMosaic.ValueIdx

namespace Cert.Proof.LstmClaims

open Cert.KernelIdeal.CellValue Cert.LstmSpec

theorem frame_k : Cert.frame_Kernel := fun m ρ _ => Cert.Kernel.Cell.frame m ρ
theorem frame_ki : Cert.frame_KernelIdeal := fun m ρ _ => Cert.KernelIdeal.Cell.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

set_option maxHeartbeats 4000000 in
/-- From memories agreeing on the arguments both programs end with the new hidden state, the new cell state and the
    output of the whole batch: the kernel's arrays by its sixteen write-backs, the reference's by its run read entry by
    entry, over the same weights and biases. -/
theorem algebraic : Cert.algebraic_KernelIdeal_ReferenceIdeal := by
  intro m ρ m' ρ' _ hagree
  refine ⟨fun c => hidArr m c, fun c => cellArr m c, fun c => outArr m c, Cert.KernelIdeal.CellValue.run m ρ, ?_⟩
  refine (θ_run Cert.ReferenceIdeal.defs _ _).mono (fun r h c => ?_) (Cert.ReferenceIdeal.Value.run (F := Ideal) m' ρ')
  obtain ⟨h0, h1, h2, hrest⟩ := h c
  obtain ⟨a0, a1, a2, a3, a4, a5, a6, a7, a8, a9, a10, a11, a12, a13, a14, a15, a16⟩ := hagree c
  refine ⟨h0.trans ?_, h1.trans ?_, h2.trans ?_, hrest⟩
  · rw [Cert.ReferenceIdeal.Read.val_main_v38_eq, a0, a1, a2, a3, a4, a5, a6, a7, a8, a9, a10, a11, a12, a13, a14]
    funext i
    obtain ⟨p, q, rfl⟩ : ∃ (p : Fin 4096) (q : Fin 1024), i = ix2 p q := ⟨i 0, i 1, eq_ix2 i⟩
    rw [Cert.ReferenceIdeal.RefCell.hidden_apply]
    dsimp only [hidArr]
    rw [Cert.KernelIdeal.Cell.V_main_arg0, Cert.KernelIdeal.Cell.V_main_arg1, Cert.KernelIdeal.Cell.V_main_arg2, layout_wx, layout_wh, layout_b]
  · rw [Cert.ReferenceIdeal.Read.val_main_v36_eq, a0, a1, a2, a3, a4, a5, a6, a7, a8, a9, a10, a11, a12, a13, a14]
    funext i
    obtain ⟨p, q, rfl⟩ : ∃ (p : Fin 4096) (q : Fin 1024), i = ix2 p q := ⟨i 0, i 1, eq_ix2 i⟩
    rw [Cert.ReferenceIdeal.RefCell.cell_apply]
    dsimp only [cellArr]
    rw [Cert.KernelIdeal.Cell.V_main_arg0, Cert.KernelIdeal.Cell.V_main_arg1, Cert.KernelIdeal.Cell.V_main_arg2, layout_wx, layout_wh, layout_b]
  · rw [Cert.ReferenceIdeal.Read.val_main_v43_eq, a0, a1, a2, a3, a4, a5, a6, a7, a8, a9, a10, a11, a12, a13, a14, a15, a16]
    funext i
    obtain ⟨p, q, rfl⟩ : ∃ (p : Fin 4096) (q : Fin 1024), i = ix2 p q := ⟨i 0, i 1, eq_ix2 i⟩
    rw [Cert.ReferenceIdeal.RefCell.out_apply]
    dsimp only [outArr]
    rw [Cert.KernelIdeal.Cell.V_main_arg0, Cert.KernelIdeal.Cell.V_main_arg1, Cert.KernelIdeal.Cell.V_main_arg2, layout_wx, layout_wh, layout_b, layout_wo, layout_bo]

end Cert.Proof.LstmClaims

end
-- ==== Proof.lean ====
/-
  A fused LSTM cell step against its plain reference, on the extended reals.

  Both programs take a batch of 4096 rows (input x, hidden state h, cell state c, each 4096 × 1024), four gates'
  weights and biases for each of x and h, and an output layer, and return the new hidden state, the new cell state
  and the output:

      gates  = x · Wxᵀ + h · Whᵀ + b          (Wx, Wh: the forget, input, output and candidate matrices stacked)
      c'     = σ(gates_f) · c + σ(gates_i) · tanh(gates_g)
      h'     = σ(gates_o) · tanh(c')
      out    = h' · Woutᵀ + b_out

  The kernel computes this 256 rows at a time over a grid of 16 points, with the weights resident; the reference
  computes it for the whole batch at once. Exactly computed the two agree entry by entry: every entry of row p
  depends on row p of x, h and c only, a narrowing of the float format is the identity, a product into a zero
  accumulator is the plain sum, and the sigmoid is 1 / (1 + e^(-z)) on both sides. No law used needs the inputs to
  be finite.

  Proof/CellBody, Proof/CellRun (and Proof/WordBody, Proof/WordRun for the program as printed at the word level):
  the frames — each program runs to the end and leaves its seventeen arguments as launched. Proof/LstmSpec: the cell
  as a function. Proof/CellPayload, Proof/CellArrays: the kernel's three result arrays are that function of the whole
  batch. Proof/RefCell: so are the reference's. Proof/Bridge: the two sides meet.
-/
import proofs.«111151_j37245956391346_2_alg».proof.Defs
import proofs.«111151_j37245956391346_2_alg».proof.Proof.Gen.Kernel
import proofs.«111151_j37245956391346_2_alg».proof.Proof.Gen.KernelIdeal
import proofs.«111151_j37245956391346_2_alg».proof.Proof.Gen.ReferenceIdeal
import proofs.«111151_j37245956391346_2_alg».proof.Proof.Gen.Pre_finite_inputs
import proofs.«111151_j37245956391346_2_alg».proof.Proof.Gen.ReferenceIdeal.Run
import proofs.«111151_j37245956391346_2_alg».proof.Proof.Gen.ReferenceIdeal.Read
import proofs.«111151_j37245956391346_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LstmClaims.frame_k, LstmClaims.frame_ki, LstmClaims.frame_ri, LstmClaims.preserves, LstmClaims.algebraic⟩

end Cert.Proof

end
